-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S9x4096 : Shape := ⟨2, ![9, 4096]⟩
abbrev S1024 : Shape := ⟨1, ![1024]⟩
abbrev S8x4096 : Shape := ⟨2, ![8, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S9x4096 : S_.BroadcastsInDim S9x4096 (![] : Fin 0 → Fin S9x4096.rank)
  reducesTo_S9x4096_S_d0_1 : S9x4096.ReducesTo [0, 1] S_
  bcast_S_S1024 : S_.BroadcastsInDim S1024 (![] : Fin 0 → Fin S1024.rank)
  reducesTo_S1024_S_d0 : S1024.ReducesTo [0] S_
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S8x4096 .f32) (main_arg5 : FVec F S8x4096 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8x4096 .f32 := Host.absf main_arg4
  let main_cst_6 : FVec F S_ .f32 := constant S_ .f32 0x7F800000#32
  let main_v20 : FVec F S8x4096 .f32 := broadcastInDim S8x4096 ![] bcast_S_S8x4096 main_cst_6
  let main_v21 : IVec S8x4096 1 := cmpf .olt main_v19 main_v20
  let main_c_7 : IVec S_ 1 := constantI S_ 1 1#1
  let main_v22 : IVec S_ 1 := (fun x v => Host.reduce IntOp.andi x v reducesTo_S8x4096_S_d0_1 h_S_) main_v21 main_c_7
  let main_v23 : IVec S_ 1 := andi main_v18 main_v22
  let main_v24 : FVec F S8x4096 .f32 := Host.absf main_arg5
  let main_cst_8 : FVec F S_ .f32 := constant S_ .f32 0x7F800000#32
  let main_v25 : FVec F S8x4096 .f32 := broadcastInDim S8x4096 ![] bcast_S_S8x4096 main_cst_8
  let main_v26 : IVec S8x4096 1 := cmpf .olt main_v24 main_v25
  let main_c_9 : IVec S_ 1 := constantI S_ 1 1#1
  let main_v27 : IVec S_ 1 := (fun x v => Host.reduce IntOp.andi x v reducesTo_S8x4096_S_d0_1 h_S_) main_v26 main_c_9
  let main_v28 : IVec S_ 1 := andi main_v23 main_v27
  main_v28

def fn {F : FTy → Type} [FloatOps F] (main_arg0 : FVec F S8192x1024 .f32) (main_arg1 : FVec F S4096x1024 .f32) (main_arg2 : FVec F S9x4096 .f32) (main_arg3 : FVec F S1024 .f32) (main_arg4 : FVec F S8x4096 .f32) (main_arg5 : FVec F S8x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S9x4096 .f32 := Host.absf main_arg2
  let main_cst_2 : FVec F S_ .f32 := constant S_ .f32 0x7F800000#32
  let main_v10 : FVec F S9x4096 .f32 := broadcastInDim S9x4096 ![] bcast_S_S9x4096 main_cst_2
  let main_v11 : IVec S9x4096 1 := cmpf .olt main_v9 main_v10
  let main_c_3 : IVec S_ 1 := constantI S_ 1 1#1
  let main_v12 : IVec S_ 1 := (fun x v => Host.reduce IntOp.andi x v reducesTo_S9x4096_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S8192x1024 : Shape := ⟨2, ![8192, 1024]⟩
abbrev S4096x1024 : Shape := ⟨2, ![4096, 1024]⟩
abbrev S9x4096 : Shape := ⟨2, ![9, 4096]⟩
abbrev S1024 : Shape := ⟨1, ![1024]⟩
abbrev S8x4096 : Shape := ⟨2, ![8, 4096]⟩
abbrev S1x1024 : Shape := ⟨2, ![1, 1024]⟩
abbrev S512x1024 : Shape := ⟨2, ![512, 1024]⟩
abbrev S512x4096 : Shape := ⟨2, ![512, 4096]⟩
abbrev S1x4096 : Shape := ⟨2, ![1, 4096]⟩
abbrev S4096 : Shape := ⟨1, ![4096]⟩

abbrev nBuf : Space → Nat
  | .hbm => 11
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S9x4096, .f32⟩
  | .hbm, ⟨3, _⟩ => ⟨S1024, .f32⟩
  | .hbm, ⟨4, _⟩ => ⟨S8x4096, .f32⟩
  | .hbm, ⟨5, _⟩ => ⟨S8x4096, .f32⟩
  | .hbm, ⟨6, _⟩ => ⟨S8x4096, .f32⟩
  | .hbm, ⟨7, _⟩ => ⟨S8x4096, .f32⟩
  | .hbm, ⟨8, _⟩ => ⟨S4096x1024, .bf16⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S9x4096_S8x4096_0_0 : S9x4096.Slices ![0, 0] S8x4096
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  slices_S8x4096_o0_0_S1x4096 : S8x4096.Slices ![0, 0] S1x4096
  shapeCasts_S1x4096_S4096 : S1x4096.ShapeCasts S4096
  shapeCasts_S4096_S1x4096 : S4096.ShapeCasts S1x4096
  broadcasts_S1x4096_S512x4096 : S1x4096.Broadcasts S512x4096
  slices_S8x4096_o1_0_S1x4096 : S8x4096.Slices ![1, 0] S1x4096
  slices_S8x4096_o2_0_S1x4096 : S8x4096.Slices ![2, 0] S1x4096
  slices_S8x4096_o3_0_S1x4096 : S8x4096.Slices ![3, 0] S1x4096
  slices_S8x4096_o4_0_S1x4096 : S8x4096.Slices ![4, 0] S1x4096
  slices_S8x4096_o5_0_S1x4096 : S8x4096.Slices ![5, 0] S1x4096
  slices_S8x4096_o6_0_S1x4096 : S8x4096.Slices ![6, 0] S1x4096
  slices_S8x4096_o7_0_S1x4096 : S8x4096.Slices ![7, 0] S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S4096x1024_S512x4096_1_1_0_0_n_n_wf : DotDims.WF S512x1024 S4096x1024 S512x4096 [1] [1] [0] [0] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S8x4096.size a
  hwx0_3 : ∀ i : grid0.Coords, EltTy.bits .f32 = 32 ∨ (Rect.block (s := S8x4096) S8x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x4096.size a ≤ S8x4096.size a
  hwx0_4 : ∀ i : grid0.Coords, EltTy.bits .f32 = 32 ∨ (Rect.block (s := S8x4096) S8x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S9x4096 : Shape := ⟨2, ![9, 4096]⟩
abbrev S1024 : Shape := ⟨1, ![1024]⟩
abbrev S8x4096 : Shape := ⟨2, ![8, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S1x1024 : Shape := ⟨2, ![1, 1024]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S4096x1024, .f32⟩
  | 2 => ⟨S9x4096, .f32⟩
  | 3 => ⟨S1024, .f32⟩
  | 4 => ⟨S8x4096, .f32⟩
  | 5 => ⟨S8x4096, .f32⟩
  | 6 => ⟨S8192x4096, .f32⟩
  | 7 => ⟨S1x4096, .f32⟩
  | 8 => ⟨S4096, .f32⟩
  | 9 => ⟨S1x4096, .f32⟩
  | 10 => ⟨S4096, .f32⟩
  | 11 => ⟨S1x4096, .f32⟩
  | 12 => ⟨S8192x4096, .f32⟩
  | 13 => ⟨S8192x4096, .f32⟩
  | 14 => ⟨S1x4096, .f32⟩
  | 15 => ⟨S8192x4096, .f32⟩
  | 16 => ⟨S8192x4096, .f32⟩
  | 17 => ⟨S1x4096, .f32⟩
  | 18 => ⟨S4096, .f32⟩
  | 19 => ⟨S1x4096, .f32⟩
  | 20 => ⟨S4096, .f32⟩
  | 21 => ⟨S1x4096, .f32⟩
  | 22 => ⟨S8192x4096, .f32⟩
  | 23 => ⟨S8192x4096, .f32⟩
  | 24 => ⟨S1x4096, .f32⟩
  | 25 => ⟨S8192x4096, .f32⟩
  | 26 => ⟨S8192x4096, .f32⟩
  | 27 => ⟨S1x4096, .f32⟩
  | 28 => ⟨S4096, .f32⟩
  | 29 => ⟨S_, .f32⟩
  | 30 => ⟨S8192x4096, .f32⟩
  | 31 => ⟨S8192x4096, .f32⟩
  | 32 => ⟨S1x4096, .f32⟩
  | 33 => ⟨S8192x4096, .f32⟩
  | 34 => ⟨S8192x4096, .f32⟩
  | 35 => ⟨S8192x4096, .f32⟩
  | 36 => ⟨S1x4096, .f32⟩
  | 37 => ⟨S4096, .f32⟩
  | 38 => ⟨S1x4096, .f32⟩
  | 39 => ⟨S4096, .f32⟩
  | 40 => ⟨S1x4096, .f32⟩
  | 41 => ⟨S8192x4096, .f32⟩
  | 42 => ⟨S8192x4096, .f32⟩
  | 43 => ⟨S1x4096, .f32⟩
  | 44 => ⟨S8192x4096, .f32⟩
  | 45 => ⟨S8192x4096, .f32⟩
  | 46 => ⟨S1x4096, .f32⟩
  | 47 => ⟨S4096, .f32⟩
  | 48 => ⟨S_, .f32⟩
  | 49 => ⟨S8192x4096, .f32⟩
  | 50 => ⟨S8192x4096, .f32⟩
  | 51 => ⟨S1x4096, .f32⟩
  | 52 => ⟨S8192x4096, .f32⟩
  | 53 => ⟨S8192x4096, .f32⟩
  | 54 => ⟨S8192x4096, .f32⟩
  | 55 => ⟨S1x4096, .f32⟩
  | 56 => ⟨S4096, .f32⟩
  | 57 => ⟨S1x4096, .f32⟩
  | 58 => ⟨S4096, .f32⟩
  | 59 => ⟨S1x4096, .f32⟩
  | 60 => ⟨S8192x4096, .f32⟩
  | 61 => ⟨S8192x4096, .f32⟩
  | 62 => ⟨S1x4096, .f32⟩
  | 63 => ⟨S8192x4096, .f32⟩
  | 64 => ⟨S8192x4096, .f32⟩
  | 65 => ⟨S1x4096, .f32⟩
  | 66 => ⟨S4096, .f32⟩
  | 67 => ⟨S_, .f32⟩
  | 68 => ⟨S8192x4096, .f32⟩
  | 69 => ⟨S8192x4096, .f32⟩
  | 70 => ⟨S1x4096, .f32⟩
  | 71 => ⟨S8192x4096, .f32⟩
  | 72 => ⟨S8192x4096, .f32⟩
  | 73 => ⟨S8192x4096, .f32⟩
  | 74 => ⟨S1x4096, .f32⟩
  | 75 => ⟨S4096, .f32⟩
  | 76 => ⟨S1x4096, .f32⟩
  | 77 => ⟨S4096, .f32⟩
  | 78 => ⟨S1x4096, .f32⟩
  | 79 => ⟨S8192x4096, .f32⟩
  | 80 => ⟨S8192x4096, .f32⟩
  | 81 => ⟨S1x4096, .f32⟩
  | 82 => ⟨S8192x4096, .f32⟩
  | 83 => ⟨S8192x4096, .f32⟩
  | 84 => ⟨S1x4096, .f32⟩
  | 85 => ⟨S4096, .f32⟩
  | 86 => ⟨S_, .f32⟩
  | 87 => ⟨S8192x4096, .f32⟩
  | 88 => ⟨S8192x4096, .f32⟩
  | 89 => ⟨S1x4096, .f32⟩
  | 90 => ⟨S8192x4096, .f32⟩
  | 91 => ⟨S8192x4096, .f32⟩
  | 92 => ⟨S8192x4096, .f32⟩
  | 93 => ⟨S1x4096, .f32⟩
  | 94 => ⟨S4096, .f32⟩
  | 95 => ⟨S1x4096, .f32⟩
  | 96 => ⟨S4096, .f32⟩
  | 97 => ⟨S1x4096, .f32⟩
  | 98 => ⟨S8192x4096, .f32⟩
  | 99 => ⟨S8192x4096, .f32⟩
  | 100 => ⟨S1x4096, .f32⟩
  | 101 => ⟨S8192x4096, .f32⟩
  | 102 => ⟨S8192x4096, .f32⟩
  | 103 => ⟨S1x4096, .f32⟩
  | 104 => ⟨S4096, .f32⟩
  | 105 => ⟨S_, .f32⟩
  | 106 => ⟨S8192x4096, .f32⟩
  | 107 => ⟨S8192x4096, .f32⟩
  | 108 => ⟨S1x4096, .f32⟩
  | 109 => ⟨S8192x4096, .f32⟩
  | 110 => ⟨S8192x4096, .f32⟩
  | 111 => ⟨S8192x4096, .f32⟩
  | 112 => ⟨S1x4096, .f32⟩
  | 113 => ⟨S4096, .f32⟩
  | 114 => ⟨S1x4096, .f32⟩
  | 115 => ⟨S4096, .f32⟩
  | 116 => ⟨S1x4096, .f32⟩
  | 117 => ⟨S8192x4096, .f32⟩
  | 118 => ⟨S8192x4096, .f32⟩
  | 119 => ⟨S1x4096, .f32⟩
  | 120 => ⟨S8192x4096, .f32⟩
  | 121 => ⟨S8192x4096, .f32⟩
  | 122 => ⟨S1x4096, .f32⟩
  | 123 => ⟨S4096, .f32⟩
  | 124 => ⟨S_, .f32⟩
  | 125 => ⟨S8192x4096, .f32⟩
  | 126 => ⟨S8192x4096, .f32⟩
  | 127 => ⟨S1x4096, .f32⟩
  | _ => ⟨S8192x1024, .f32⟩

abbrev hbmTy0_1 (i : Nat) : BufTy := match i % 128 with
  | 0 => ⟨S8192x4096, .f32⟩
  | 1 => ⟨S8192x4096, .f32⟩
  | 2 => ⟨S8192x4096, .f32⟩
  | 3 => ⟨S1x4096, .f32⟩
  | 4 => ⟨S4096, .f32⟩
  | 5 => ⟨S1x4096, .f32⟩
  | 6 => ⟨S4096, .f32⟩
  | 7 => ⟨S1x4096, .f32⟩
  | 8 => ⟨S8192x4096, .f32⟩
  | 9 => ⟨S8192x4096, .f32⟩
  | 10 => ⟨S1x4096, .f32⟩
  | 11 => ⟨S8192x4096, .f32⟩
  | 12 => ⟨S8192x4096, .f32⟩
  | 13 => ⟨S1x4096, .f32⟩
  | 14 => ⟨S4096, .f32⟩
  | 15 => ⟨S_, .f32⟩
  | 16 => ⟨S8192x4096, .f32⟩
  | 17 => ⟨S8192x4096, .f32⟩
  | 18 => ⟨S1x4096, .f32⟩
  | 19 => ⟨S8192x4096, .f32⟩
  | 20 => ⟨S8192x4096, .f32⟩
  | 21 => ⟨S8192x4096, .f32⟩
  | 22 => ⟨S1x4096, .f32⟩
  | 23 => ⟨S4096, .f32⟩
  | 24 => ⟨S_, .f32⟩
  | 25 => ⟨S8192x4096, .f32⟩
  | 26 => ⟨S8192x4096, .f32⟩
  | 27 => ⟨S1x4096, .f32⟩
  | 28 => ⟨S8192x4096, .f32⟩
  | 29 => ⟨S8192x4096, .f32⟩
  | 30 => ⟨S8192x1024, .f32⟩
  | 31 => ⟨S1x1024, .f32⟩
  | 32 => ⟨S8192x1024, .f32⟩
  | 33 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_cst : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call1_cst : Ref sig .tc := ⟨.hbm, 48, rfl⟩
abbrev main_call1_v0 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_call2_cst : Ref sig .tc := ⟨.hbm, 67, rfl⟩
abbrev main_call2_v0 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_call3_cst : Ref sig .tc := ⟨.hbm, 86, rfl⟩
abbrev main_call3_v0 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_call4_cst : Ref sig .tc := ⟨.hbm, 105, rfl⟩
abbrev main_call4_v0 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_call5_cst : Ref sig .tc := ⟨.hbm, 124, rfl⟩
abbrev main_call5_v0 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_call6_cst : Ref sig .tc := ⟨.hbm, 143, rfl⟩
abbrev main_call6_v0 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_call7_cst : Ref sig .tc := ⟨.hbm, 152, rfl⟩
abbrev main_call7_v0 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩

abbrev nD : Nat := 1
abbrev τ : Topo := Topo.v7x

variable {F : FTy → Type} [FloatOps F]

class Facts₀ : Prop where
  slices_S8x4096_S1x4096_0_0 : S8x4096.Slices ![0, 0] S1x4096
  shapeCasts_S1x4096_S4096 : S1x4096.ShapeCasts S4096
  slices_S9x4096_S1x4096_0_0 : S9x4096.Slices ![0, 0] S1x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8x4096_S1x4096_1_0 : S8x4096.Slices ![1, 0] S1x4096
  slices_S9x4096_S1x4096_1_0 : S9x4096.Slices ![1, 0] S1x4096
  bcast_S_S8192x4096 : S_.BroadcastsInDim S8192x4096 (![] : Fin 0 → Fin S8192x4096.rank)
  slices_S8x4096_S1x4096_2_0 : S8x4096.Slices ![2, 0] S1x4096
  slices_S9x4096_S1x4096_2_0 : S9x4096.Slices ![2, 0] S1x4096
  slices_S8x4096_S1x4096_3_0 : S8x4096.Slices ![3, 0] S1x4096
  slices_S9x4096_S1x4096_3_0 : S9x4096.Slices ![3, 0] S1x4096
  slices_S8x4096_S1x4096_4_0 : S8x4096.Slices ![4, 0] S1x4096
  slices_S9x4096_S1x4096_4_0 : S9x4096.Slices ![4, 0] S1x4096
  slices_S8x4096_S1x4096_5_0 : S8x4096.Slices ![5, 0] S1x4096
  slices_S9x4096_S1x4096_5_0 : S9x4096.Slices ![5, 0] S1x4096
  slices_S8x4096_S1x4096_6_0 : S8x4096.Slices ![6, 0] S1x4096
  slices_S9x4096_S1x4096_6_0 : S9x4096.Slices ![6, 0] S1x4096
  slices_S8x4096_S1x4096_7_0 : S8x4096.Slices ![7, 0] S1x4096
  slices_S9x4096_S1x4096_7_0 : S9x4096.Slices ![7, 0] S1x4096
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S4096x1024_S8192x4096_1_1_0_0_n_n_wf : DotDims.WF S8192x1024 S4096x1024 S8192x4096 [1] [1] [0] [0] [] []
  dot_S8192x4096_S4096x1024_S8192x1024_1_0_0_1_n_n_wf : DotDims.WF S8192x4096 S4096x1024 S8192x1024 [1] [0] [0] [1] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.Spec.lean ====
/-
  The cascaded residual network, entry by entry, and the two arrangements of its skip term.

  One hidden entry h = Σ_k x[b,k]·W[e,k] feeds eight layers. Layer j adds a SKIP term s_j (a function of h and of the
  layer's row of coefficients) to the previous layer's rectified value scaled by a gain:
      z_0 = s_0,   z_{j+1} = s_{j+1} + a_j · max(z_j, 0),   y = a_7 · max(z_7, 0),
  and the output is out[b,i] = Σ_e y[b,e]·W[e,i] + c[i], the same matrix W used in both products.

  The skip term is written in two ways: PLAIN, β·(h + b), and FOLDED, β·h + c with c = β·b computed beforehand.
  They differ by distributivity, which the extended reals have only away from the infinities (⊤ + ⊥ = ⊥), so the two
  outputs agree where the entries of x, W, β and b are real numbers; nothing else in the network is rearranged.
-/
import Idealize.ShloMosaic.PureOps.Ideal.Laws
import Idealize.ShloMosaic.Lib.ValueIdx
import proofs.«152253_j86122684220072_2_alg».proof.Proof.LibRealEntries

noncomputable section

namespace Cert.Cascade

open Idealize.ShloMosaic Idealize.ShloMosaic.ValueIdx Cert.LibRealEntries

/-- The eight layers on one entry, from the eight skip terms `s` and the eight gains `a`. -/
def casc (s a : Fin 8 → EReal) : EReal :=
  a 7 * max (s 7 + a 6 * max (s 6 + a 5 * max (s 5 + a 4 * max (s 4 + a 3 * max (s 3 + a 2 * max (s 2 + a 1 *
    max (s 1 + a 0 * max (s 0) 0) 0) 0) 0) 0) 0) 0) 0

/-- The cascade depends on the skip terms only through their values. -/
theorem casc_congr {s s' a : Fin 8 → EReal} (h : ∀ j, s j = s' j) : casc s a = casc s' a := by
  rw [show s = s' from funext h]

/-- Layer j's row among the nine bias rows (the ninth is not used). -/
def up (j : Fin 8) : Fin 9 := ⟨j.val, Nat.lt_succ_of_lt j.isLt⟩

/-- The hidden entry h[p,e] = Σ_k x[p,k]·W[e,k], for a batch of any number of rows. -/
def hid {B : ℕ} (x : (⟨2, ![B, 1024]⟩ : Shape).Idx → EReal) (W : (⟨2, ![4096, 1024]⟩ : Shape).Idx → EReal)
    (p : Fin B) (e : Fin 4096) : EReal :=
  ∑ k : Fin 1024, x (ix2 p k) * W (ix2 e k)

/-- The output entry out[p,q] = Σ_e y[p,e]·W[e,q] + c[q], with layer j's skip term at column e given as a function
    `sk h j e` of the hidden entry. -/
def outOf {B : ℕ} (sk : EReal → Fin 8 → Fin 4096 → EReal) (x : (⟨2, ![B, 1024]⟩ : Shape).Idx → EReal)
    (W : (⟨2, ![4096, 1024]⟩ : Shape).Idx → EReal) (alpha : (⟨2, ![8, 4096]⟩ : Shape).Idx → EReal)
    (bl : Fin 1024 → EReal) (p : Fin B) (q : Fin 1024) : EReal :=
  (∑ e : Fin 4096, casc (fun j => sk (hid x W p e) j e) (fun j => alpha (ix2 j e)) * W (ix2 e q)) + bl q

/-- The folded skip term β·h + c. -/
def skipFolded (beta c : (⟨2, ![8, 4096]⟩ : Shape).Idx → EReal) : EReal → Fin 8 → Fin 4096 → EReal :=
  fun h j e => beta (ix2 j e) * h + c (ix2 j e)

/-- The plain skip term β·(h + b). -/
def skipPlain (beta : (⟨2, ![8, 4096]⟩ : Shape).Idx → EReal) (biases : (⟨2, ![9, 4096]⟩ : Shape).Idx → EReal) :
    EReal → Fin 8 → Fin 4096 → EReal :=
  fun h j e => beta (ix2 j e) * (h + biases (ix2 (up j) e))

/-- Distributivity on real entries. -/
theorem skip_eq {b h c : EReal} (hb : IsReal b) (hh : IsReal h) (hc : IsReal c) : b * h + b * c = b * (h + c) := by
  obtain ⟨b, rfl⟩ := hb; obtain ⟨h, rfl⟩ := hh; obtain ⟨c, rfl⟩ := hc
  simp only [← EReal.coe_mul, ← EReal.coe_add]
  congr 1
  ring

/-- With c = β·b and real entries of x, W, β and b, the folded and the plain network have the same output. -/
theorem outOf_folded_eq_plain {B : ℕ} (x : (⟨2, ![B, 1024]⟩ : Shape).Idx → EReal)
    (W : (⟨2, ![4096, 1024]⟩ : Shape).Idx → EReal) (alpha beta c : (⟨2, ![8, 4096]⟩ : Shape).Idx → EReal)
    (biases : (⟨2, ![9, 4096]⟩ : Shape).Idx → EReal) (bl : Fin 1024 → EReal)
    (hc : ∀ (j : Fin 8) (e : Fin 4096), c (ix2 j e) = beta (ix2 j e) * biases (ix2 (up j) e))
    (hx : ∀ i, IsReal (x i)) (hW : ∀ i, IsReal (W i)) (hbeta : ∀ i, IsReal (beta i)) (hb : ∀ i, IsReal (biases i))
    (p : Fin B) (q : Fin 1024) :
    outOf (skipFolded beta c) x W alpha bl p q = outOf (skipPlain beta biases) x W alpha bl p q := by
  unfold outOf
  refine congrArg (· + bl q) (Finset.sum_congr rfl fun e _ => ?_)
  refine congrArg (· * W (ix2 e q)) (casc_congr fun j => ?_)
  show beta (ix2 j e) * hid x W p e + c (ix2 j e) = beta (ix2 j e) * (hid x W p e + biases (ix2 (up j) e))
  rw [hc]
  exact skip_eq (hbeta _) (IsReal.sum _ _ fun k _ => (hx _).mul (hW _)) (hb _)

/-- The reference's result: the plain network on the whole batch. -/
def refOut (x : (⟨2, ![8192, 1024]⟩ : Shape).Idx → EReal) (W : (⟨2, ![4096, 1024]⟩ : Shape).Idx → EReal)
    (biases : (⟨2, ![9, 4096]⟩ : Shape).Idx → EReal) (bl : (⟨1, ![1024]⟩ : Shape).Idx → EReal)
    (alpha beta : (⟨2, ![8, 4096]⟩ : Shape).Idx → EReal) : (⟨2, ![8192, 1024]⟩ : Shape).Idx → EReal :=
  fun i => outOf (skipPlain beta biases) x W alpha (fun q => bl (ix1 q)) (i 0) (i 1)

/-- The kernel's result: the folded network on the whole batch, c an array of its own. -/
def kerOut (x : (⟨2, ![8192, 1024]⟩ : Shape).Idx → EReal) (W : (⟨2, ![4096, 1024]⟩ : Shape).Idx → EReal)
    (c : (⟨2, ![8, 4096]⟩ : Shape).Idx → EReal) (bl : (⟨2, ![1, 1024]⟩ : Shape).Idx → EReal)
    (alpha beta : (⟨2, ![8, 4096]⟩ : Shape).Idx → EReal) : (⟨2, ![8192, 1024]⟩ : Shape).Idx → EReal :=
  fun i => outOf (skipFolded beta c) x W alpha (fun q => bl (ix2 (0 : Fin 1) q)) (i 0) (i 1)

end Cert.Cascade

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.KernelBlock.lean ====
/-
  One grid point's output block, entry by entry.

  The body loads a block of 512 rows of x, the whole of W (held as bf16, which at the ideal values is W itself), the
  three 8 × 4096 coefficient tables and the one-row last bias, and stores a 512 × 1024 block. Every operation between
  is pointwise except three kinds: a table's row j cut out and spread over the 512 rows (read at (p, e): the table's
  entry (j, e)); the product x·Wᵀ into a zero accumulator (read at (p, e): Σ_k x(p, k)·W(e, k)); and the product with
  W (read at (p, q): Σ_e y(p, e)·W(e, q)). Reading the stored block at (p, q) through these gives the folded network's
  output entry for the block's row p and column q.
-/
import proofs.«152253_j86122684220072_2_alg».proof.Proof.Gen.KernelIdeal.Value
import Idealize.ShloMosaic.Lib.ValueLayout
import Idealize.ShloMosaic.Lib.ValueIdx
import Idealize.ShloMosaic.PureOps.Ideal.Laws
import proofs.«152253_j86122684220072_2_alg».proof.Proof.Spec
import proofs.«152253_j86122684220072_2_alg».proof.Proof.LibMatmulRhsT
import proofs.«152253_j86122684220072_2_alg».proof.Proof.LibPlainMatmul

noncomputable section

namespace Cert.KernelIdeal.Block

open Cert.KernelIdeal Cert.KernelIdeal.Gen Idealize.ShloMosaic Idealize.ShloMosaic.ValueIdx Cert.Cascade

/-- Row `o` of an [8, E] table — cut out, flattened, unflattened, spread over A rows — reads at (p, e) the table's
    entry (o, e). -/
theorem rowSpread_apply {A E : ℕ} {α : Type} (o : ℕ) (k : Fin 8) (hk : k.val = o) (v : (⟨2, ![8, E]⟩ : Shape).Idx → α)
    (hs : (⟨2, ![8, E]⟩ : Shape).Slices ![o, 0] ⟨2, ![1, E]⟩) (h1 : (⟨2, ![1, E]⟩ : Shape).ShapeCasts ⟨1, ![E]⟩)
    (h2 : (⟨1, ![E]⟩ : Shape).ShapeCasts ⟨2, ![1, E]⟩) (hb : (⟨2, ![1, E]⟩ : Shape).Broadcasts ⟨2, ![A, E]⟩)
    (p : Fin A) (e : Fin E) :
    broadcastTo ⟨2, ![A, E]⟩ (shapeCast ⟨2, ![1, E]⟩ (shapeCast ⟨1, ![E]⟩
      (extractStridedSlice ⟨2, ![1, E]⟩ ![o, 0] v hs) h1) h2) hb (ix2 p e) = v (ix2 k e) := by
  rw [broadcastTo_1b_ab_apply, shapeCast_a_1a_apply, shapeCast_1a_a_apply]
  exact slice2_axis0_apply o v hs 0 e k (by rw [hk]; rfl)

/-- The bf16 zero word is zero. -/
theorem zero_bf16 : Ideal.ofBits .bf16 0x0000#16 = 0 := by simp [Ideal.ofBits, Ideal.ieee]

/-- The hidden block: x·Wᵀ at (p, e). -/
theorem hidden_apply (x0 : FVec Ideal S512x1024 .f32) (w : FVec Ideal S4096x1024 .bf16) (p : Fin 512) (e : Fin 4096) :
    k0_pay6 (F := Ideal) x0 w (ix2 p e) = hid x0 w p e := by
  unfold k0_pay6 k0_pay2
  rw [shapeCast_self]
  exact LibMatmulRhsT.matmul_transposedRhs_zero_apply 512 1024 4096 none _ _ p e

/-- The last bias row spread over the block reads at (p, q) the row's entry q. -/
theorem lastBias_apply (bl : FVec Ideal S1x1024 .f32) (p : Fin 512) (q : Fin 1024) :
    broadcastTo S512x1024 (shapeCast S1x1024 bl shapeCasts_S1x1024_S1x1024) broadcasts_S1x1024_S512x1024 (ix2 p q)
      = bl (ix2 (0 : Fin 1) q) := by
  rw [shapeCast_self]
  exact broadcastTo_1b_ab_apply _ _ p q

/-- The last layer's value y at (p, e): the cascade of the folded skip terms on the hidden entry. -/
theorem last_layer_apply (x0 : FVec Ideal S512x1024 .f32) (w : FVec Ideal S4096x1024 .bf16)
    (cc al be : FVec Ideal S8x4096 .f32) (p : Fin 512) (q : Fin 1024) :
    k0_pay13 (F := Ideal) (k0_pay2 w) (k0_pay3 cc) (k0_pay4 al) (k0_pay5 be) (k0_pay6 x0 w)
      (k0_pay10 (k0_pay3 cc) (k0_pay4 al) (k0_pay5 be) (k0_pay6 x0 w) (k0_pay7 x0 w cc al be) (k0_pay8 x0 w be) (k0_pay9 cc))
      (k0_pay11 (k0_pay5 be) (k0_pay6 x0 w)) (k0_pay12 (k0_pay3 cc)) (ix2 p q)
    = ∑ e : Fin 4096, casc (fun j => skipFolded be cc (hid x0 w p e) j e) (fun j => al (ix2 j e)) * w (ix2 e q) := by
  unfold k0_pay13
  refine (matmul_plain_zero_apply 512 4096 1024 none _ _ p q).trans ?_
  refine Finset.sum_congr rfl fun e _ => ?_
  unfold k0_pay10 k0_pay7 k0_pay8 k0_pay9 k0_pay11 k0_pay12 k0_pay3 k0_pay4 k0_pay5 k0_pay2
  simp only [mulf_apply, addf_apply, maximumf_apply, broadcast_apply, truncf_apply, shapeCast_self,
    rowSpread_apply 0 (0 : Fin 8) rfl, rowSpread_apply 1 (1 : Fin 8) rfl, rowSpread_apply 2 (2 : Fin 8) rfl,
    rowSpread_apply 3 (3 : Fin 8) rfl, rowSpread_apply 4 (4 : Fin 8) rfl, rowSpread_apply 5 (5 : Fin 8) rfl,
    rowSpread_apply 6 (6 : Fin 8) rfl, rowSpread_apply 7 (7 : Fin 8) rfl,
    hidden_apply, Ideal.ofBits_def, zero_bf16, casc, skipFolded]

/-- The stored block at (p, q): the folded network's output entry for the block's row p and column q, the hidden entry
    taken over the block's rows of x. -/
theorem block_apply (x0 : FVec Ideal S512x1024 .f32) (w : FVec Ideal S4096x1024 .bf16)
    (cc al be : FVec Ideal S8x4096 .f32) (bl : FVec Ideal S1x1024 .f32) (p : Fin 512) (q : Fin 1024) :
    k0_pay1 (F := Ideal) (k0_pay13 (k0_pay2 w) (k0_pay3 cc) (k0_pay4 al) (k0_pay5 be) (k0_pay6 x0 w)
      (k0_pay10 (k0_pay3 cc) (k0_pay4 al) (k0_pay5 be) (k0_pay6 x0 w) (k0_pay7 x0 w cc al be) (k0_pay8 x0 w be) (k0_pay9 cc))
      (k0_pay11 (k0_pay5 be) (k0_pay6 x0 w)) (k0_pay12 (k0_pay3 cc))) bl (ix2 p q)
    = outOf (skipFolded be cc) x0 w al (fun q => bl (ix2 (0 : Fin 1) q)) p q := by
  unfold k0_pay1 outOf
  refine (addf_apply _ _ _).trans ?_
  rw [lastBias_apply, last_layer_apply x0 w cc al be p q]

end Cert.KernelIdeal.Block

end
-- ==== Proof.KernelValue.lean ====
/-
  From blocks to the array: the kernel's result as one function of the arrays.

  The grid has sixteen points; point t reads rows 512·t … 512·t + 511 of x and the whole of every other operand, and
  writes back rows 512·t … 512·t + 511 of the result. So what point t writes is block t of ONE function of the arrays
  as the region finds them — the folded network on the whole batch — and the sixteen blocks tile the result array.
-/
import proofs.«152253_j86122684220072_2_alg».proof.Proof.Gen.KernelIdeal.Value
import proofs.«152253_j86122684220072_2_alg».proof.Proof.KernelBlock
import Idealize.ShloMosaic.Lib.Pipeline.Value
import Idealize.ShloMosaic.Lib.ValueIdx
import Idealize.ShloMosaic.Lib.StableHlo.Run
import Idealize.ShloMosaic.Lib.ValueLayout

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.Cascade
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the sixteen points: x and the result move with the point along the rows,
    every other operand stays at its one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What the result array ends holding: the folded network of the arrays as the region finds them. -/
def arr (c : Dev nD) : (⟨2, ![8192, 1024]⟩ : Shape).Idx → EReal :=
  kerOut (V m c main_arg0) (V m c main_v2) (V m c main_v1) (V m c main_v3) (V m c main_arg4) (V m c main_arg5)

/-- The output entry depends on x only through the one row it reads. -/
theorem outOf_rows {B B' : ℕ} (sk : EReal → Fin 8 → Fin 4096 → EReal) (x : (⟨2, ![B, 1024]⟩ : Shape).Idx → EReal)
    (x' : (⟨2, ![B', 1024]⟩ : Shape).Idx → EReal) (W : (⟨2, ![4096, 1024]⟩ : Shape).Idx → EReal)
    (alpha : (⟨2, ![8, 4096]⟩ : Shape).Idx → EReal) (bl : Fin 1024 → EReal) (p : Fin B) (p' : Fin B') (q q' : Fin 1024)
    (hx : ∀ k : Fin 1024, x (ix2 p k) = x' (ix2 p' k)) (hq : q = q') :
    outOf sk x W alpha bl p q = outOf sk x' W alpha bl p' q' := by
  subst hq
  have hh : ∀ e, hid x W p e = hid x' W p' e := fun e => Finset.sum_congr rfl fun k _ => by rw [hx k]
  unfold outOf
  simp only [hh]

/-- W's window is the whole array at every point. -/
theorem blockW (c : Dev nD) (t : Fin cfg0.N) : (iblk m c 1 t : S4096x1024.Idx → EReal) = V m c main_v2 := by
  obtain ⟨-, -, f10, f11, -⟩ := index_facts t
  funext y
  show V m c main_v2 (((cfg0.win 1).blk t).view.emb y) = V m c main_v2 y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The folded bias table's window is the whole table at every point. -/
theorem blockC (c : Dev nD) (t : Fin cfg0.N) : (iblk m c 2 t : S8x4096.Idx → EReal) = V m c main_v1 := by
  obtain ⟨-, -, -, -, f20, f21, -⟩ := index_facts t
  funext y
  show V m c main_v1 (((cfg0.win 2).blk t).view.emb y) = V m c main_v1 y
  refine congrArg _ (funext fun a => Fin.ext ?_)
  match a with
  | ⟨0, _⟩ => show win0_2.index t (0 : Fin 2) * 8 + 1 * (y 0).val = (y 0).val; omega
  | ⟨1, _⟩ => show win0_2.index t (1 : Fin 2) * 4096 + 1 * (y 1).val = (y 1).val; omega

/-- The gain table's window is the whole table at every point. -/
theorem blockA (c : Dev nD) (t : Fin cfg0.N) : (iblk m c 3 t : S8x4096.Idx → EReal) = V m c main_arg4 := by
  obtain ⟨-, -, -, -, -, -, f30, f31, -⟩ := index_facts t
  funext y
  show V m c main_arg4 (((cfg0.win 3).blk t).view.emb y) = V m c main_arg4 y
  refine congrArg _ (funext fun a => Fin.ext ?_)
  match a with
  | ⟨0, _⟩ => show win0_3.index t (0 : Fin 2) * 8 + 1 * (y 0).val = (y 0).val; omega
  | ⟨1, _⟩ => show win0_3.index t (1 : Fin 2) * 4096 + 1 * (y 1).val = (y 1).val; omega

/-- The scale table's window is the whole table at every point. -/
theorem blockB (c : Dev nD) (t : Fin cfg0.N) : (iblk m c 4 t : S8x4096.Idx → EReal) = V m c main_arg5 := by
  obtain ⟨-, -, -, -, -, -, -, -, f40, f41, -⟩ := index_facts t
  funext y
  show V m c main_arg5 (((cfg0.win 4).blk t).view.emb y) = V m c main_arg5 y
  refine congrArg _ (funext fun a => Fin.ext ?_)
  match a with
  | ⟨0, _⟩ => show win0_4.index t (0 : Fin 2) * 8 + 1 * (y 0).val = (y 0).val; omega
  | ⟨1, _⟩ => show win0_4.index t (1 : Fin 2) * 4096 + 1 * (y 1).val = (y 1).val; omega

/-- The last bias row's window is the whole row at every point. -/
theorem blockL (c : Dev nD) (t : Fin cfg0.N) : (iblk m c 5 t : S1x1024.Idx → EReal) = V m c main_v3 := by
  obtain ⟨-, -, -, -, -, -, -, -, -, -, f50, f51, -⟩ := index_facts t
  funext y
  show V m c main_v3 (((cfg0.win 5).blk t).view.emb y) = V m c main_v3 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-- WHAT POINT t WRITES BACK is block t of the folded network of the arrays as the region finds them. -/
theorem flushed_eq (c : Dev nD) (t : Fin cfg0.N) :
    (dats m 0 c).flushed 6 t = ((cfg0.win 6).blk t).view.read (Elt Ideal) (arr m c) := by
  rw [Cert.KernelIdeal.Value.flushed6]
  unfold out0_6
  rw [View.canon_unit_zero zero_offsets]
  simp only [View.ld_unit_zero (S := S512x1024) zero_offsets, View.ld_unit_zero (S := S4096x1024) zero_offsets,
    View.ld_unit_zero (S := S8x4096) zero_offsets, View.ld_unit_zero (S := S1x1024) zero_offsets]
  obtain ⟨f00, f01, -, -, -, -, -, -, -, -, -, -, f60, f61⟩ := index_facts t
  funext j
  obtain ⟨p, q, rfl⟩ : ∃ (p : Fin 512) (q : Fin 1024), j = ix2 p q := ⟨j 0, j 1, eq_ix2 j⟩
  refine (block_apply (iblk m c 0 t) (iblk m c 1 t) (iblk m c 2 t) (iblk m c 3 t) (iblk m c 4 t) (iblk m c 5 t) p q).trans ?_
  rw [blockW m c t, blockC m c t, blockA m c t, blockB m c t, blockL m c t]
  refine outOf_rows (B := 512) (B' := 8192) _ (iblk m c 0 t) (V m c main_arg0) _ _ _ p
    ((((cfg0.win 6).blk t).view.emb (ix2 p q)) 0) q ((((cfg0.win 6).blk t).view.emb (ix2 p q)) 1) (fun k => ?_) ?_
  · show V m c main_arg0 (((cfg0.win 0).blk t).view.emb (ix2 p k)) = V m c main_arg0 _
    refine congrArg _ (funext fun a => Fin.ext ?_)
    match a with
    | ⟨0, _⟩ => show win0_0.index t (0 : Fin 2) * 512 + 1 * p.val = win0_6.index t (0 : Fin 2) * 512 + 1 * p.val; omega
    | ⟨1, _⟩ => show win0_0.index t (1 : Fin 2) * 1024 + 1 * k.val = k.val; omega
  · refine Fin.ext ?_
    show q.val = win0_6.index t (1 : Fin 2) * 1024 + 1 * q.val
    omega

/-- The sixteen blocks tile the result array: row r is in the block of point r / 512. -/
theorem covered (i : S8192x1024.Idx) :
    ∃ t : Fin cfg0.N, (cfg0.win 6).flush t = true ∧ i ∈ ((cfg0.win 6).blk t).view.set := by
  have h0 : (i 0).val < 8192 := (i 0).isLt
  have h1 : (i 1).val < 1024 := (i 1).isLt
  have hN : grid0.N = 16 := N_0
  let t : Fin cfg0.N := ⟨(i 0).val / 512, by show (i 0).val / 512 < grid0.N; omega⟩
  obtain ⟨-, -, -, -, -, -, -, -, -, -, -, -, f60, f61⟩ := index_facts t
  have ht : t.val = (i 0).val / 512 := rfl
  refine ⟨t, flush0_6 t, ?_⟩
  show i ∈ ((View.whole main_v4).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 1024 ≤ (i 1).val ∧ (i 1).val < win0_6.index t (1 : Fin 2) * 1024 + 1024
    omega

/-- THE RESULT ARRAY after the run: the folded network of the arrays as the region finds them. -/
theorem final (c : Dev nD) : (dats m 0 c).arrAt 6 cfg0.N = arr m c :=
  (dats m 0 c).arrAt_eq_of_cover 6 (arr m c) (fun t _ => flushed_eq m c t) covered

/-- W as the region finds it: the cast to bf16 changes no ideal value. -/
theorem V_W (c : Dev nD) : @Eq (S4096x1024.Idx → EReal) (V m c main_v2) (m ((c : Thread nD τ).loc main_arg1)) := by
  have e : @Eq (FVec Ideal S4096x1024 .bf16) (V m c main_v2)
      (truncf (F := Ideal) .bf16 (m ((c : Thread nD τ).loc main_arg1)) bitsLt_bf16_f32) := by
    dsimp only [Gen.V, Gen.hostOps0]; after_results <;> rfl
  exact e.trans rfl

/-- The folded bias table as the region finds it: β times the first eight bias rows, entry by entry. -/
theorem V_C (c : Dev nD) : @Eq (FVec Ideal S8x4096 .f32) (V m c main_v1)
    (mulf (F := Ideal) (m ((c : Thread nD τ).loc main_arg5))
      (extractStridedSlice S8x4096 ![0, 0] (m ((c : Thread nD τ).loc main_arg2)) slices_S9x4096_S8x4096_0_0)) := by
  dsimp only [Gen.V, Gen.hostOps0]; after_results <;> rfl

/-- The last bias as the region finds it: the vector given a unit leading axis. -/
theorem V_L (c : Dev nD) : (V m c main_v3 : S1x1024.Idx → EReal)
    = shapeCast S1x1024 (m ((c : Thread nD τ).loc main_arg3) : S1024.Idx → EReal) shapeCasts_S1024_S1x1024 := by
  dsimp only [Gen.V, Gen.hostOps0]; after_results <;> rfl

/-- The result array in terms of the memory the program is launched from. -/
theorem arr_eq (c : Dev nD) :
    arr m c = kerOut (m ((c : Thread nD τ).loc main_arg0)) (m ((c : Thread nD τ).loc main_arg1))
      (mulf (F := Ideal) (φ := .f32) (m ((c : Thread nD τ).loc main_arg5))
        (extractStridedSlice S8x4096 ![0, 0] (m ((c : Thread nD τ).loc main_arg2)) slices_S9x4096_S8x4096_0_0))
      (shapeCast S1x1024 (m ((c : Thread nD τ).loc main_arg3) : S1024.Idx → EReal) shapeCasts_S1024_S1x1024)
      (m ((c : Thread nD τ).loc main_arg4)) (m ((c : Thread nD τ).loc main_arg5)) := by
  unfold arr
  rw [V_main_arg0 m c, V_W m c, V_C m c, V_L m c, V_main_arg4 m c, V_main_arg5 m c]

/-- The kernel's run, read: the result array ends at the folded network of the arrays, the arguments unchanged. -/
theorem run : θ_run defs (onTc (τ := τ) (main (F := Ideal))) ⟨m, fun _ => 0, ρ⟩ fun r => ∀ c : Dev nD,
      r.2.mem ((c : Thread nD τ).loc main_v4) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Whole

end
-- ==== Proof.LibDotRhsT.lean ====
/-
  The host's matrix product that contracts BOTH operands' last axes, read at an index, at the ideal values.

  For an [A, K] matrix and a [B, K] matrix, a `dot_general` contracting the left operand's columns with the right
  operand's columns (the product with the transpose, written without forming it; an einsum 'bi,ei->be') is, at (p, m),
  the sum over k of L(p, k) · R(m, k): a sum indexed by `Fin K`, both operands read at indices written by coordinates.
  The operand indices are those of the same contraction inside a kernel.
-/
import Idealize.ShloMosaic.PureOps.Ideal.Laws
import Idealize.ShloMosaic.Lib.ValueIdx
import proofs.«152253_j86122684220072_2_alg».proof.Proof.LibMatmulRhsT

noncomputable section

namespace Cert.LibDotRhsT

open Idealize.ShloMosaic Idealize.ShloMosaic.ValueIdx Cert.LibMatmulRhsT

/-- An [A, K] by [B, K] `dot_general` on the host contracting both last axes, read at (p, m): Σ_k L(p, k) · R(m, k). -/
theorem dotGeneral_transposedRhs_apply (A K B : Nat) {φ₁ φ₂ : FTy} (prec : Option ContractPrecision) (sched : HostSchedule)
    (lhs : FVec Ideal ⟨2, ![A, K]⟩ φ₁) (rhs : FVec Ideal ⟨2, ![B, K]⟩ φ₂) (p : Fin A) (m : Fin B) :
    FloatOps.dotGeneral (DotDims.transposedRhs A K B) prec sched lhs rhs (ix2 p m)
      = ∑ k : Fin K, lhs (ix2 p k) * rhs (ix2 m k) := by
  rw [Ideal.dotGeneral_apply, ← Equiv.sum_comp (contrEquiv1 (DotDims.transposedRhs A K B) K rfl rfl).symm]
  refine Finset.sum_congr rfl fun k _ => ?_
  rw [transposedRhs_lhsIdx, transposedRhs_rhsIdx]

end Cert.LibDotRhsT

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«152253_j86122684220072_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.RefValue.lean ====
/-
  The reference's result, entry by entry: the plain network.

  The reference's composed term is a tree of pointwise operations over four kinds of leaves: the hidden product x·Wᵀ
  (read at (P, e): Σ_k x(P, k)·W(e, k)); a table's row o cut out, flattened and spread over the batch (read at (P, e):
  the table's entry (o, e)); the zero the rectifier compares with; and, outermost, the product with W and the last
  bias spread over the batch. Reading the tree at (P, q) through these gives the plain network's output entry.
-/
import proofs.«152253_j86122684220072_2_alg».proof.Proof.Gen.ReferenceIdeal.Run
import Idealize.ShloMosaic.Lib.ValueLayout
import Idealize.ShloMosaic.Lib.ValueIdx
import Idealize.ShloMosaic.Lib.Pipeline.Value
import Idealize.ShloMosaic.PureOps.Ideal.Laws
import proofs.«152253_j86122684220072_2_alg».proof.Proof.Spec
import proofs.«152253_j86122684220072_2_alg».proof.Proof.LibDotRhsT
import proofs.«152253_j86122684220072_2_alg».proof.Proof.LibPlainDot

noncomputable section

namespace Cert.ReferenceIdeal.RefValue

open Cert.ReferenceIdeal Cert.ReferenceIdeal.Gen Idealize.ShloMosaic Idealize.ShloMosaic.ValueIdx Cert.Cascade

/-- Row `o` of an [n, E] table — cut out, flattened, given back its unit axis, spread over B rows — reads at (p, e)
    the table's entry (o, e). -/
theorem hostRow_apply {n B E : ℕ} {α : Type} (o : ℕ) (k : Fin n) (hk : k.val = o) (v : (⟨2, ![n, E]⟩ : Shape).Idx → α)
    (hs : (⟨2, ![n, E]⟩ : Shape).Slices ![o, 0] ⟨2, ![1, E]⟩) (h1 : (⟨2, ![1, E]⟩ : Shape).ShapeCasts ⟨1, ![E]⟩)
    (hb1 : (⟨1, ![E]⟩ : Shape).BroadcastsInDim ⟨2, ![1, E]⟩ ![1])
    (hb2 : (⟨2, ![1, E]⟩ : Shape).BroadcastsInDim ⟨2, ![B, E]⟩ ![0, 1]) (p : Fin B) (e : Fin E) :
    broadcastInDim ⟨2, ![B, E]⟩ ![0, 1] hb2 (broadcastInDim ⟨2, ![1, E]⟩ ![1] hb1
      (shapeCast ⟨1, ![E]⟩ (extractStridedSlice ⟨2, ![1, E]⟩ ![o, 0] v hs) h1)) (ix2 p e) = v (ix2 k e) := by
  refine (broadcastInDim_apply ![0, 1] hb2 _ (ix2 p e) (ix2 (0 : Fin 1) e) fun a => ?_).trans ?_
  · match a with
    | ⟨0, _⟩ => rfl
    | ⟨1, _⟩ =>
      show e.val = if E = 1 then 0 else e.val
      split
      · have := e.isLt; omega
      · rfl
  refine (broadcastInDim_apply ![1] hb1 _ (ix2 (0 : Fin 1) e) (ix1 e) fun a => ?_).trans ?_
  · match a with
    | ⟨0, _⟩ =>
      show e.val = if E = 1 then 0 else e.val
      split
      · have := e.isLt; omega
      · rfl
  rw [shapeCast_1a_a_apply]
  exact slice2_axis0_apply o v hs 0 e k (by rw [hk]; rfl)

/-- A vector [E] given a unit axis and spread over B rows reads at (p, e) the vector's entry e. -/
theorem hostVec_apply {B E : ℕ} {α : Type} (v : (⟨1, ![E]⟩ : Shape).Idx → α)
    (hb1 : (⟨1, ![E]⟩ : Shape).BroadcastsInDim ⟨2, ![1, E]⟩ ![1])
    (hb2 : (⟨2, ![1, E]⟩ : Shape).BroadcastsInDim ⟨2, ![B, E]⟩ ![0, 1]) (p : Fin B) (e : Fin E) :
    broadcastInDim ⟨2, ![B, E]⟩ ![0, 1] hb2 (broadcastInDim ⟨2, ![1, E]⟩ ![1] hb1 v) (ix2 p e) = v (ix1 e) := by
  refine (broadcastInDim_apply ![0, 1] hb2 _ (ix2 p e) (ix2 (0 : Fin 1) e) fun a => ?_).trans ?_
  · match a with
    | ⟨0, _⟩ => rfl
    | ⟨1, _⟩ =>
      show e.val = if E = 1 then 0 else e.val
      split
      · have := e.isLt; omega
      · rfl
  refine broadcastInDim_apply ![1] hb1 _ (ix2 (0 : Fin 1) e) (ix1 e) fun a => ?_
  match a with
  | ⟨0, _⟩ =>
    show e.val = if E = 1 then 0 else e.val
    split
    · have := e.isLt; omega
    · rfl

/-- The rectifier's zero, spread over any shape, is zero at every index. -/
theorem hostZero_apply {s : Shape} (hb : (⟨0, ![]⟩ : Shape).BroadcastsInDim s ![]) (i : s.Idx) :
    broadcastInDim s ![] hb (constant (F := Ideal) ⟨0, ![]⟩ .f32 0x00000000#32) i = 0 :=
  (broadcastInDim_apply ![] hb _ i ix0 (fun a => a.elim0)).trans Ideal.ofBits_zero_f32

/-- The reference's composed term at (P, q): the plain network's output entry. -/
theorem res_apply (m : (ℓ : Loc nD τ sig) → Buf (Elt Ideal) ℓ) (c : Dev nD) (P : Fin 8192) (q : Fin 1024) :
    Cert.ReferenceIdeal.Value.res_main_v139 (F := Ideal) m c (ix2 P q)
      = outOf (skipPlain (m ((c.tc : Thread nD τ).loc main_arg5)) (m ((c.tc : Thread nD τ).loc main_arg2)))
          (m ((c.tc : Thread nD τ).loc main_arg0)) (m ((c.tc : Thread nD τ).loc main_arg1))
          (m ((c.tc : Thread nD τ).loc main_arg4)) (fun q => m ((c.tc : Thread nD τ).loc main_arg3) (ix1 q)) P q := by
  unfold Cert.ReferenceIdeal.Value.res_main_v139 outOf
  refine (addf_apply _ _ _).trans ?_
  rw [hostVec_apply]
  refine congrArg (· + m ((c.tc : Thread nD τ).loc main_arg3) (ix1 q)) ?_
  refine (LibPlainDot.dotGeneral_plain_apply 8192 4096 1024 none _ _ _ P q).trans ?_
  refine Finset.sum_congr rfl fun e _ => ?_
  have hh : Host.dotGeneral (F := Ideal) (φ₁ := .f32) (φ₂ := .f32) dot_S8192x1024_S4096x1024_S8192x4096_1_1_0_0_n_n none
      (m ((c.tc : Thread nD τ).loc main_arg0)) (m ((c.tc : Thread nD τ).loc main_arg1)) (ix2 P e)
      = hid (m ((c.tc : Thread nD τ).loc main_arg0)) (m ((c.tc : Thread nD τ).loc main_arg1)) P e :=
    LibDotRhsT.dotGeneral_transposedRhs_apply 8192 1024 4096 none .single _ _ P e
  simp only [mulf_apply, addf_apply, maximumf_apply, hostZero_apply bcast_S_S8192x4096 (ix2 P e), hh,
    hostRow_apply 0 (0 : Fin 8) rfl, hostRow_apply 1 (1 : Fin 8) rfl, hostRow_apply 2 (2 : Fin 8) rfl,
    hostRow_apply 3 (3 : Fin 8) rfl, hostRow_apply 4 (4 : Fin 8) rfl, hostRow_apply 5 (5 : Fin 8) rfl,
    hostRow_apply 6 (6 : Fin 8) rfl, hostRow_apply 7 (7 : Fin 8) rfl,
    hostRow_apply 0 (up 0) rfl, hostRow_apply 1 (up 1) rfl, hostRow_apply 2 (up 2) rfl, hostRow_apply 3 (up 3) rfl,
    hostRow_apply 4 (up 4) rfl, hostRow_apply 5 (up 5) rfl, hostRow_apply 6 (up 6) rfl, hostRow_apply 7 (up 7) rfl,
    casc, skipPlain]

/-- The reference's result array is the plain network of the argument arrays. -/
theorem res_eq (m : (ℓ : Loc nD τ sig) → Buf (Elt Ideal) ℓ) (c : Dev nD) :
    Cert.ReferenceIdeal.Value.res_main_v139 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  rw [eq_ix2 i]
  exact res_apply m c (i 0) (i 1)

end Cert.ReferenceIdeal.RefValue

end
-- ==== Proof.Bridge.lean ====
/-
  The kernel's result is the reference's.

  The kernel computes the folded network with the table c = β · (the first eight bias rows), multiplied out entry by
  entry before the launch, and with the last bias given a unit leading axis; the reference computes the plain network.
  Reading c at (j, e) gives β(j, e)·b(j, e), reading the reshaped bias at (0, q) gives its entry q, and on real entries
  β·h + β·b = β·(h + b): the two results are one array.
-/
import Idealize.ShloMosaic.Lib.ValueLayout
import Idealize.ShloMosaic.Lib.ValueIdx
import proofs.«152253_j86122684220072_2_alg».proof.Proof.Spec

noncomputable section

namespace Cert.Cascade

open Idealize.ShloMosaic Idealize.ShloMosaic.ValueIdx Cert.LibRealEntries

/-- The folded network on c = β · b[0:8] and the reshaped last bias is the plain network, where x, W, β and b have real
    entries. -/
theorem kerOut_eq_refOut (x : FVec Ideal ⟨2, ![8192, 1024]⟩ .f32) (W : FVec Ideal ⟨2, ![4096, 1024]⟩ .f32)
    (biases : FVec Ideal ⟨2, ![9, 4096]⟩ .f32) (bl : FVec Ideal ⟨1, ![1024]⟩ .f32) (alpha beta : FVec Ideal ⟨2, ![8, 4096]⟩ .f32)
    (hs : (⟨2, ![9, 4096]⟩ : Shape).Slices ![0, 0] ⟨2, ![8, 4096]⟩)
    (h1 : (⟨1, ![1024]⟩ : Shape).ShapeCasts ⟨2, ![1, 1024]⟩)
    (hx : ∀ i, IsReal (x i)) (hW : ∀ i, IsReal (W i)) (hbeta : ∀ i, IsReal (beta i)) (hb : ∀ i, IsReal (biases i)) :
    kerOut x W (mulf beta (extractStridedSlice ⟨2, ![8, 4096]⟩ ![0, 0] biases hs)) (shapeCast ⟨2, ![1, 1024]⟩ bl h1) alpha beta
      = refOut x W biases bl alpha beta := by
  funext i
  unfold kerOut refOut
  have hbl : (fun q : Fin 1024 => shapeCast ⟨2, ![1, 1024]⟩ bl h1 (ix2 (0 : Fin 1) q)) = fun q => bl (ix1 q) :=
    funext fun q => shapeCast_a_1a_apply bl h1 0 q
  rw [hbl]
  refine outOf_folded_eq_plain x W alpha beta _ biases _ (fun j e => ?_) hx hW hbeta hb (i 0) (i 1)
  refine (mulf_apply _ _ _).trans (congrArg (beta (ix2 j e) * ·) ?_)
  exact slice2_axis0_apply 0 biases hs j e (up j) (by show j.val = 0 + j.val; omega)

end Cert.Cascade

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«152253_j86122684220072_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.Finite.lean ====
/-
  The precondition, read: every entry of every input is a real number.

  The printed precondition is the conjunction of six tests, one per input array, each saying that the absolute value
  of every entry is below +∞; it holds when its one result is 1. A conjunction of bits that is 1 has every conjunct 1,
  and each test that holds says its array's entries are real numbers (neither infinity).
-/
import proofs.«152253_j86122684220072_2_alg».proof.Pre_finite_inputs
import Idealize.ShloMosaic.Lib.Affine
import proofs.«152253_j86122684220072_2_alg».proof.Proof.LibFinitePre

noncomputable section

namespace Cert.Proof.Finite

open Idealize.ShloMosaic Idealize.ShloMosaic.ValueIdx Cert.LibRealEntries Cert.LibFinitePre Cert.Pre_finite_inputs

variable [Cert.Pre_finite_inputs.Facts]

/-- Where the printed precondition holds, all six arrays have real entries. -/
theorem reals_of_pre (x0 : FVec Ideal S8192x1024 .f32) (x1 : FVec Ideal S4096x1024 .f32) (x2 : FVec Ideal S9x4096 .f32)
    (x3 : FVec Ideal S1024 .f32) (x4 x5 : FVec Ideal S8x4096 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have h0 := congrFun h ix0
  dsimp only [Cert.Pre_finite_inputs.fn, Cert.Pre_finite_inputs.fn_part1, andi] at h0
  rw [IntOp.andi_eq_one, IntOp.andi_eq_one, IntOp.andi_eq_one, IntOp.andi_eq_one, IntOp.andi_eq_one] at h0
  obtain ⟨⟨⟨⟨⟨e0, e1⟩, e2⟩, e3⟩, e4⟩, e5⟩ := h0
  exact ⟨all_real x0 _ _ _ e0, all_real x1 _ _ _ e1, all_real x2 _ _ _ e2, all_real x3 _ _ _ e3,
    all_real x4 _ _ _ e4, all_real x5 _ _ _ e5⟩

end Cert.Proof.Finite

end
-- ==== Proof.lean ====
/-
  A cascaded residual network with a tied weight: the kernel against its reference, on the extended reals.

  Both programs compute, for a batch x [8192, 1024] and one weight W [4096, 1024],
      h = x·Wᵀ,   z_0 = s_0,   z_{j+1} = s_{j+1} + α_j · max(z_j, 0)  (j = 0 … 6),   out = (α_7 · max(z_7, 0))·W + c,
  eight layers entry by entry between two products with the same W. They differ in one place: the reference's skip
  term is s_j = β_j · (h + b_j), the kernel's is s_j = β_j · h + (β_j · b_j) with the table β · b multiplied out on the
  host before the launch. (The kernel also rounds W, the tables and the layers to bf16, which changes no ideal value,
  and works on sixteen blocks of 512 rows, each row of the result depending on its own row of x only.)

  On the extended reals β·(h + b) = β·h + β·b needs the three entries to be real numbers — it fails at the
  infinities — so the precondition is USED: every input entry is finite, hence h, a finite sum of products of reals,
  is real, and so are β and b. Under it the two results are one array.

  The kernel's result array is read off the generated blockwise value leg (block t of the result is the folded
  network on rows 512·t … 512·t + 511, and the blocks tile the array); the reference's off its generated run (the
  composed term read at an index); the frames are the generated ones, and the idealization rewrote nothing.
-/
import proofs.«152253_j86122684220072_2_alg».proof.Defs
import proofs.«152253_j86122684220072_2_alg».proof.Proof.Gen.Kernel
import proofs.«152253_j86122684220072_2_alg».proof.Proof.Gen.Kernel.Skeleton
import proofs.«152253_j86122684220072_2_alg».proof.Proof.Gen.Kernel.Launch
import proofs.«152253_j86122684220072_2_alg».proof.Proof.Gen.Kernel.Points
import proofs.«152253_j86122684220072_2_alg».proof.Proof.Gen.Kernel.Frame
import proofs.«152253_j86122684220072_2_alg».proof.Proof.Gen.KernelIdeal
import proofs.«152253_j86122684220072_2_alg».proof.Proof.Gen.KernelIdeal.Skeleton
import proofs.«152253_j86122684220072_2_alg».proof.Proof.Gen.KernelIdeal.Launch
import proofs.«152253_j86122684220072_2_alg».proof.Proof.Gen.KernelIdeal.Points
import proofs.«152253_j86122684220072_2_alg».proof.Proof.Gen.KernelIdeal.Frame
import proofs.«152253_j86122684220072_2_alg».proof.Proof.Gen.ReferenceIdeal
import proofs.«152253_j86122684220072_2_alg».proof.Proof.Gen.Pre_finite_inputs
import proofs.«152253_j86122684220072_2_alg».proof.Proof.Gen.KernelIdeal.Value
import proofs.«152253_j86122684220072_2_alg».proof.Proof.Gen.ReferenceIdeal.Run
import Idealize.ShloMosaic.Adequacy
import Idealize.ShloMosaic.Init
import proofs.«152253_j86122684220072_2_alg».proof.Proof.KernelValue
import proofs.«152253_j86122684220072_2_alg».proof.Proof.RefValue
import proofs.«152253_j86122684220072_2_alg».proof.Proof.Bridge
import proofs.«152253_j86122684220072_2_alg».proof.Proof.Finite

noncomputable section

namespace Cert.Proof

open Idealize.ShloMosaic Idealize.SL.Sem Cert.Cascade

/-- The kernel as printed runs, and leaves its arguments as they were. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, with finite inputs, both programs end with the plain network of the
    arguments in their result array: the kernel's folded network is the plain one on real entries, and the reference's
    composed term is the plain one at every index. -/
theorem algebraic : Cert.algebraic_KernelIdeal_ReferenceIdeal := by
  intro m ρ m' ρ' hpre hagree
  refine ⟨fun c => refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Whole.run m ρ)
    obtain ⟨hx, hW, hb, -, -, hbeta⟩ := Finite.reals_of_pre _ _ _ _ _ _ (hpre c)
    rw [Cert.KernelIdeal.Whole.arr_eq]
    exact kerOut_eq_refOut _ _ _ _ _ _ _ _ hx hW hbeta hb
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
